-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S512x1024 : Shape := ⟨2, ![512, 1024]⟩
abbrev S512 : Shape := ⟨1, ![512]⟩
abbrev S1000x2048 : Shape := ⟨2, ![1000, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1000x2048 : S_.BroadcastsInDim S1000x2048 (![] : Fin 0 → Fin S1000x2048.rank)
  reducesTo_S1000x2048_S_d0_1 : S1000x2048.ReducesTo [0, 1] S_

variable [Facts]

def fn_part2 {F : FTy → Type} [FloatOps F] (main_arg7 : FVec F S512 .f32) (main_arg8 : FVec F S1000x2048 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S1000x2048 .f32 := Host.absf main_arg8
  let main_cst_14 : FVec F S_ .f32 := constant S_ .f32 0x7F800000#32
  let main_v40 : FVec F S1000x2048 .f32 := broadcastInDim S1000x2048 ![] bcast_S_S1000x2048 main_cst_14
  let main_v41 : IVec S1000x2048 1 := cmpf .olt main_v39 main_v40
  let main_c_15 : IVec S_ 1 := constantI S_ 1 1#1
  let main_v42 : IVec S_ 1 := (fun x v => Host.reduce IntOp.andi x v reducesTo_S1000x2048_S_d0_1 h_S_) main_v41 main_c_15
  let main_v43 : IVec S_ 1 := andi main_v38 main_v42
  main_v43

def fn_part1 {F : FTy → Type} [FloatOps F] (main_arg4 : FVec F S512x1024 .f32) (main_arg5 : FVec F S512 .f32) (main_arg6 : FVec F S512x1024 .f32) (main_arg7 : FVec F S512 .f32) (main_arg8 : FVec F S1000x2048 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S512x1024 .f32) (main_arg5 : FVec F S512 .f32) (main_arg6 : FVec F S512x1024 .f32) (main_arg7 : FVec F S512 .f32) (main_arg8 : FVec F S1000x2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S512x1024 : Shape := ⟨2, ![512, 1024]⟩
abbrev S512 : Shape := ⟨1, ![512]⟩
abbrev S1000x2048 : Shape := ⟨2, ![1000, 2048]⟩
abbrev S1024x512 : Shape := ⟨2, ![1024, 512]⟩
abbrev S1x512 : Shape := ⟨2, ![1, 512]⟩
abbrev S2048x1000 : Shape := ⟨2, ![2048, 1000]⟩
abbrev S_ : Shape := ⟨0, ![]⟩
abbrev S1000 : Shape := ⟨1, ![1000]⟩
abbrev S1x1000 : Shape := ⟨2, ![1, 1000]⟩
abbrev S4096x1000 : Shape := ⟨2, ![4096, 1000]⟩
abbrev S256x1024 : Shape := ⟨2, ![256, 1024]⟩
abbrev S256x1000 : Shape := ⟨2, ![256, 1000]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 23
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S512x1024, .f32⟩
  | .hbm, ⟨5, _⟩ => ⟨S512, .f32⟩
  | .hbm, ⟨6, _⟩ => ⟨S512x1024, .f32⟩
  | .hbm, ⟨7, _⟩ => ⟨S512, .f32⟩
  | .hbm, ⟨8, _⟩ => ⟨S1000x2048, .f32⟩
  | .hbm, ⟨9, _⟩ => ⟨S1024x512, .f32⟩
  | .hbm, ⟨10, _⟩ => ⟨S1024x512, .bf16⟩
  | .hbm, ⟨11, _⟩ => ⟨S1024x512, .f32⟩
  | .hbm, ⟨12, _⟩ => ⟨S1024x512, .bf16⟩
  | .hbm, ⟨13, _⟩ => ⟨S1x512, .f32⟩
  | .hbm, ⟨14, _⟩ => ⟨S1x512, .f32⟩
  | .hbm, ⟨15, _⟩ => ⟨S1000x2048, .bf16⟩
  | .hbm, ⟨16, _⟩ => ⟨S2048x1000, .bf16⟩
  | .hbm, ⟨17, _⟩ => ⟨S1000x2048, .f32⟩
  | .hbm, ⟨18, _⟩ => ⟨S1000x2048, .f32⟩
  | .hbm, ⟨19, _⟩ => ⟨S_, .f32⟩
  | .hbm, ⟨20, _⟩ => ⟨S1000, .f32⟩
  | .hbm, ⟨21, _⟩ => ⟨S1x1000, .f32⟩
  | .hbm, ⟨22, _⟩ => ⟨S4096x1000, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x512, .bf16⟩
  | .local _ .vmem, ⟨9, _⟩ => ⟨S1x512, .f32⟩
  | .local _ .vmem, ⟨10, _⟩ => ⟨S1024x512, .bf16⟩
  | .local _ .vmem, ⟨11, _⟩ => ⟨S1x512, .f32⟩
  | .local _ .vmem, ⟨12, _⟩ => ⟨S2048x1000, .bf16⟩
  | .local _ .vmem, ⟨13, _⟩ => ⟨S1x1000, .f32⟩
  | .local _ .vmem, ⟨14, _⟩ => ⟨S256x1000, .f32⟩
  | .local _ .vmem, ⟨15, _⟩ => ⟨S256x1000, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1000 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1000 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S512x1024_S1024x512_1_0 : S512x1024.Transposes [1, 0] S1024x512
  bitsLt_bf16_f32 : FTy.bits .bf16 < FTy.bits .f32
  shapeCasts_S512_S1x512 : S512.ShapeCasts S1x512
  transposes_S1000x2048_S2048x1000_1_0 : S1000x2048.Transposes [1, 0] S2048x1000
  reducesTo_S1000x2048_S1000_d1 : S1000x2048.ReducesTo [1] S1000
  h_S_ : 0 < S_.numel
  shapeCasts_S1000_S1x1000 : S1000.ShapeCasts S1x1000
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S256x1024_S256x1024_0_0 : ∀ a, (![0, 0] : Fin 2 → Nat) a + S256x1024.size a ≤ S256x1024.size a
  h_S256x1024 : 0 < S256x1024.numel
  broadcasts_S1x512_S256x512 : S1x512.Broadcasts S256x512
  concatenates_S256x512_S256x512_S256x512_S256x512_S256x2048_d1 : Shape.Concatenates [S256x512, S256x512, S256x512, S256x512] S256x2048 1
  reduces_S256x2048_S256 : S256x2048.Reduces [1] S256
  shapeCasts_S256_S256x1 : S256.ShapeCasts S256x1
  inb_S2048x1000_S2048x1000_0_0 : ∀ a, (![0, 0] : Fin 2 → Nat) a + S2048x1000.size a ≤ S2048x1000.size a
  h_S2048x1000 : 0 < S2048x1000.numel
  shapeCasts_S2048x1000_S2048x1000 : S2048x1000.ShapeCasts S2048x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S256x1_S256x1000 : S256x1.Broadcasts S256x1000
  broadcasts_S1x1000_S256x1000 : S1x1000.Broadcasts S256x1000
  inb_S256x1000_S256x1000_0_0 : ∀ a, (![0, 0] : Fin 2 → Nat) a + S256x1000.size a ≤ S256x1000.size a
  h_S256x1000 : 0 < S256x1000.numel
  dot_S256x1024_S1024x512_S256x512_1_0_0_1_n_n_wf : DotDims.WF S256x1024 S1024x512 S256x512 [1] [0] [0] [1] [] []
  dot_S256x2048_S2048x1000_S256x1000_1_0_0_1_n_n_wf : DotDims.WF S256x2048 S2048x1000 S256x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x1024.size a
  hwx0_3 : ∀ i : grid0.Coords, EltTy.bits .f32 = 32 ∨ (Rect.block (s := S4096x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x1000.size a ≤ S2048x1000.size a
  hwx0_8 : ∀ i : grid0.Coords, EltTy.bits .bf16 = 32 ∨ (Rect.block (s := S2048x1000) S2048x1000.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1000.size a ≤ S1x1000.size a
  hwx0_9 : ∀ i : grid0.Coords, EltTy.bits .f32 = 32 ∨ (Rect.block (s := S1x1000) S1x1000.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1000.size a ≤ S4096x1000.size a
  hwx0_10 : ∀ i : grid0.Coords, EltTy.bits .f32 = 32 ∨ (Rect.block (s := S4096x1000) S256x1000.size (cc0_transform_10 i) (hinb0_10 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x2048_S2048x1000_S256x1000_1_0_0_1_n_n : DotDims S256x2048 S2048x1000 S256x1000 where
  lhsContracting := [1]
  rhsContracting := [0]
  lhsNonContracting := [0]
  rhsNonContracting := [1]
  lhsBatch := []
  rhsBatch := []
  wf := dot_S256x2048_S2048x1000_S256x1000_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S2048x1000.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x1000.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S256x1000.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S512x1024 : Shape := ⟨2, ![512, 1024]⟩
abbrev S512 : Shape := ⟨1, ![512]⟩
abbrev S1000x2048 : Shape := ⟨2, ![1000, 2048]⟩
abbrev S1024x512 : Shape := ⟨2, ![1024, 512]⟩
abbrev S4096x512 : Shape := ⟨2, ![4096, 512]⟩
abbrev S1x512 : Shape := ⟨2, ![1, 512]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1000 : Shape := ⟨1, ![1000]⟩
abbrev S1x1000 : Shape := ⟨2, ![1, 1000]⟩
abbrev S4096x1000 : Shape := ⟨2, ![4096, 1000]⟩
abbrev S2048x1000 : Shape := ⟨2, ![2048, 1000]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S512x1024, .f32⟩
  | .hbm, ⟨5, _⟩ => ⟨S512, .f32⟩
  | .hbm, ⟨6, _⟩ => ⟨S512x1024, .f32⟩
  | .hbm, ⟨7, _⟩ => ⟨S512, .f32⟩
  | .hbm, ⟨8, _⟩ => ⟨S1000x2048, .f32⟩
  | .hbm, ⟨9, _⟩ => ⟨S1024x512, .f32⟩
  | .hbm, ⟨10, _⟩ => ⟨S4096x512, .f32⟩
  | .hbm, ⟨11, _⟩ => ⟨S1x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S1024x512, .f32⟩
  | .hbm, ⟨18, _⟩ => ⟨S4096x512, .f32⟩
  | .hbm, ⟨19, _⟩ => ⟨S1x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S1024x512, .f32⟩
  | .hbm, ⟨26, _⟩ => ⟨S4096x512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S1024x512, .f32⟩
  | .hbm, ⟨34, _⟩ => ⟨S4096x512, .f32⟩
  | .hbm, ⟨35, _⟩ => ⟨S1x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S1000x2048, .f32⟩
  | .hbm, ⟨47, _⟩ => ⟨S_, .f32⟩
  | .hbm, ⟨48, _⟩ => ⟨S1000, .f32⟩
  | .hbm, ⟨49, _⟩ => ⟨S1x1000, .f32⟩
  | .hbm, ⟨50, _⟩ => ⟨S4096x1000, .f32⟩
  | .hbm, ⟨51, _⟩ => ⟨S4096x1000, .f32⟩
  | .hbm, ⟨52, _⟩ => ⟨S4096x1000, .f32⟩
  | .hbm, ⟨53, _⟩ => ⟨S2048x1000, .f32⟩
  | .hbm, ⟨54, _⟩ => ⟨S4096x1000, .f32⟩
  | .hbm, ⟨55, _⟩ => ⟨S_, .f32⟩
  | .hbm, ⟨56, _⟩ => ⟨S4096x1000, .f32⟩
  | .hbm, ⟨57, _⟩ => ⟨S4096x1000, .f32⟩
  | .hbm, ⟨58, _⟩ => ⟨S4096x1000, .f32⟩
  | .hbm, ⟨59, _⟩ => ⟨S_, .f32⟩
  | .hbm, ⟨60, _⟩ => ⟨S4096x1000, .f32⟩
  | .hbm, ⟨61, _⟩ => ⟨S4096x1000, .f32⟩
  | .hbm, ⟨62, _⟩ => ⟨S4096x1000, .f32⟩
  | .hbm, ⟨63, _⟩ => ⟨S_, .f32⟩
  | .hbm, ⟨64, _⟩ => ⟨S4096x1000, .f32⟩
  | .hbm, ⟨65, _⟩ => ⟨S4096x1000, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call2_cst : Ref sig .tc := ⟨.hbm, 30, rfl⟩
abbrev main_call2_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call3_cst : Ref sig .tc := ⟨.hbm, 38, rfl⟩
abbrev main_call3_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_1 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_2 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  concatenates_S4096x512_S4096x512_S4096x512_S4096x512_S4096x2048_d1 : Shape.Concatenates [S4096x512, S4096x512, S4096x512, S4096x512] S4096x2048 1
  reducesTo_S4096x2048_S4096_d1 : S4096x2048.ReducesTo [1] S4096
  h_S_ : 0 < S_.numel
  bcast_S4096_S4096x1_0 : S4096.BroadcastsInDim S4096x1 (![0] : Fin 1 → Fin S4096x1.rank)
  reducesTo_S1000x2048_S1000_d1 : S1000x2048.ReducesTo [1] S1000
  bcast_S1000_S1x1000_1 : S1000.BroadcastsInDim S1x1000 (![1] : Fin 1 → Fin S1x1000.rank)
  bcast_S4096x1_S4096x1000_0_1 : S4096x1.BroadcastsInDim S4096x1000 (![0, 1] : Fin 2 → Fin S4096x1000.rank)
  bcast_S1x1000_S4096x1000_0_1 : S1x1000.BroadcastsInDim S4096x1000 (![0, 1] : Fin 2 → Fin S4096x1000.rank)
  transposes_S1000x2048_S2048x1000_1_0 : S1000x2048.Transposes [1, 0] S2048x1000
  bcast_S_S4096x1000 : S_.BroadcastsInDim S4096x1000 (![] : Fin 0 → Fin S4096x1000.rank)
  dot_S4096x1024_S1024x512_S4096x512_1_0_0_1_n_n_wf : DotDims.WF S4096x1024 S1024x512 S4096x512 [1] [0] [0] [1] [] []
  dot_S4096x2048_S2048x1000_S4096x1000_1_0_0_1_n_n_wf : DotDims.WF S4096x2048 S2048x1000 S4096x1000 [1] [0] [0] [1] [] []

variable [Facts₀]

def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x2048_S2048x1000_S4096x1000_1_0_0_1_n_n : DotDims S4096x2048 S2048x1000 S4096x1000 where
  lhsContracting := [1]
  rhsContracting := [0]
  lhsNonContracting := [0]
  rhsNonContracting := [1]
  lhsBatch := []
  rhsBatch := []
  wf := dot_S4096x2048_S2048x1000_S4096x1000_1_0_0_1_n_n_wf

class Facts : Prop extends Facts₀ where

variable [Facts]
-- ==== Proof.HostArrays.lean ====
/-
  THE ARRAYS THE HOST PREPARES BEFORE THE REGION, READ AT AN ENTRY.

  Before the region the host transposes the two weight matrices, recasts the two bias vectors as one-row matrices,
  transposes the centres, and forms the centres' squared norms: each centre row's sum of squares, started from zero,
  recast as one row. Narrowing to 16 bits and widening back are the identity on the extended reals, so at an entry
  each prepared array names one entry of an argument, or one row's sum of squares.
-/
import proofs.«136710_j69372311765581_2_alg».proof.Proof.Gen.KernelIdeal.Frame
import Idealize.ShloMosaic.Lib.StableHlo.Run
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The first weight matrix as the region finds it: transposed, `(k, j) ↦ W (j, k)`. -/
theorem V_v1_apply (c : Dev nD) (k : Fin 1024) (j : Fin 512) :
    (V m c main_v1 : S1024x512.Idx → EReal) (ix2 k j)
      = (m ((c : Thread nD τ).loc main_arg4) : S512x1024.Idx → EReal) (ix2 j k) := by
  have e : (V m c main_v1 : S1024x512.Idx → EReal)
      = transpose S1024x512 [1, 0] (m ((c : Thread nD τ).loc main_arg4) : S512x1024.Idx → EReal) transposes_S512x1024_S1024x512_1_0 := by
    dsimp only [V, hostOps0]; after_results; rfl
  rw [e]
  exact transpose_ix2_apply _ _ k j

/-- The second weight matrix as the region finds it: transposed. -/
theorem V_v3_apply (c : Dev nD) (k : Fin 1024) (j : Fin 512) :
    (V m c main_v3 : S1024x512.Idx → EReal) (ix2 k j)
      = (m ((c : Thread nD τ).loc main_arg6) : S512x1024.Idx → EReal) (ix2 j k) := by
  have e : (V m c main_v3 : S1024x512.Idx → EReal)
      = transpose S1024x512 [1, 0] (m ((c : Thread nD τ).loc main_arg6) : S512x1024.Idx → EReal) transposes_S512x1024_S1024x512_1_0 := by
    dsimp only [V, hostOps0]; after_results; rfl
  rw [e]
  exact transpose_ix2_apply _ _ k j

/-- The first bias as the region finds it: one row, `(0, j) ↦ b j`. -/
theorem V_v4_apply (c : Dev nD) (u : Fin 1) (j : Fin 512) :
    (V m c main_v4 : S1x512.Idx → EReal) (ix2 u j)
      = (m ((c : Thread nD τ).loc main_arg5) : S512.Idx → EReal) (ix1 j) := by
  have e : (V m c main_v4 : S1x512.Idx → EReal)
      = shapeCast S1x512 (m ((c : Thread nD τ).loc main_arg5) : S512.Idx → EReal) shapeCasts_S512_S1x512 := by
    dsimp only [V, hostOps0]; after_results; rfl
  rw [e]
  exact shapeCast_a_1a_apply _ _ u j

/-- The second bias as the region finds it: one row. -/
theorem V_v5_apply (c : Dev nD) (u : Fin 1) (j : Fin 512) :
    (V m c main_v5 : S1x512.Idx → EReal) (ix2 u j)
      = (m ((c : Thread nD τ).loc main_arg7) : S512.Idx → EReal) (ix1 j) := by
  have e : (V m c main_v5 : S1x512.Idx → EReal)
      = shapeCast S1x512 (m ((c : Thread nD τ).loc main_arg7) : S512.Idx → EReal) shapeCasts_S512_S1x512 := by
    dsimp only [V, hostOps0]; after_results; rfl
  rw [e]
  exact shapeCast_a_1a_apply _ _ u j

/-- The centres as the region finds them: transposed, `(d, q) ↦ C (q, d)`. -/
theorem V_v7_apply (c : Dev nD) (d : Fin 2048) (q : Fin 1000) :
    (V m c main_v7 : S2048x1000.Idx → EReal) (ix2 d q)
      = (m ((c : Thread nD τ).loc main_arg8) : S1000x2048.Idx → EReal) (ix2 q d) := by
  have e : (V m c main_v7 : S2048x1000.Idx → EReal)
      = transpose S2048x1000 [1, 0] (m ((c : Thread nD τ).loc main_arg8) : S1000x2048.Idx → EReal) transposes_S1000x2048_S2048x1000_1_0 := by
    dsimp only [V, hostOps0]; after_results; rfl
  rw [e]
  exact transpose_ix2_apply _ _ d q

/-- A 1000 × 2048 array's rows' sums of squares, started from zero and recast as one row, at `(0, q)`: the plain sum
    over row `q`. -/
theorem rowNorms_apply (x : FVec Ideal S1000x2048 .f32) (h' : S1000x2048.ReducesTo [1] S1000) (h0 : 0 < S_.numel)
    (hs : S1000.ShapeCasts S1x1000) (u : Fin 1) (q : Fin 1000) :
    shapeCast S1x1000 (Host.reduceAdd (F := Ideal) (mulf x x) (constant (F := Ideal) S_ .f32 0x00000000#32) h' h0) hs (ix2 u q)
      = ∑ d : Fin 2048, x (ix2 q d) * x (ix2 q d) := by
  rw [shapeCast_a_1a_apply]
  simp only [Host.reduceAdd, Ideal.hostReduceAdd_def]
  rw [Ideal.hostReduceAdd_single h' (by decide)]
  show Ideal.ofBits .f32 0x00000000#32 + _ = _
  rw [Ideal.ofBits_zero_f32, zero_add]
  refine Finset.sum_congr rfl fun d _ => ?_
  have e : (by decide : S1000x2048.Reduces [1] S1000).lift (ix1 q) d = ix2 q d :=
    funext fun a => Fin.ext (by match a with | ⟨0, _⟩ => rfl | ⟨1, _⟩ => rfl)
  rw [e]
  rfl

/-- Row `q`'s sum of squares. -/
def rowSq (x : S1000x2048.Idx → EReal) (q : Fin 1000) : EReal := ∑ d : Fin 2048, x (ix2 q d) * x (ix2 q d)

/-- The centres' squared norms as the region finds them: `(0, q) ↦ ∑ d, C (q, d)²`. -/
theorem V_v11_apply (c : Dev nD) (u : Fin 1) (q : Fin 1000) :
    (V m c main_v11 : S1x1000.Idx → EReal) (ix2 u q) = rowSq (m ((c : Thread nD τ).loc main_arg8)) q := by
  have e : (V m c main_v11 : S1x1000.Idx → EReal)
      = shapeCast S1x1000 (Host.reduceAdd (F := Ideal)
          (mulf (m ((c : Thread nD τ).loc main_arg8) : FVec Ideal S1000x2048 .f32) (m ((c : Thread nD τ).loc main_arg8) : FVec Ideal S1000x2048 .f32))
          (constant (F := Ideal) S_ .f32 0x00000000#32) reducesTo_S1000x2048_S1000_d1 h_S_) shapeCasts_S1000_S1x1000 := by
    dsimp only [V, hostOps0]; after_results; rfl
  rw [e]
  exact rowNorms_apply _ _ _ _ u q

end Cert.KernelIdeal.BlockValue

end
-- ==== Proof.RowDistance.lean ====
/-
  THE READOUT, ONE ENTRY AT A TIME, ON THE EXTENDED REALS.

  A sample is four rows of 1024 numbers. Each row goes through an affine map to 512 numbers followed by the
  rectifier `max · 0` (the first row with one weight matrix and bias, the other three sharing a second pair); the four
  results laid end to end are the sample's 2048 features `f`. Against a centre `c` (a row of 2048 numbers) the
  readout is

      sqrt (max ((∑ f² + ∑ c²) - 2 · ∑ f·c) 0) · s,

  the distance from `f` to `c` by the expansion of the square, scaled by the constant `s`. Nothing here asks the
  numbers to be finite: every sum is a sum in the commutative monoid of extended reals, and the constants `2` and `s`
  stay the 32-bit patterns they are written as, never evaluated.
-/
import Idealize.ShloMosaic.PureOps.Ideal
import Idealize.ShloMosaic.Lib.ValueIdx

noncomputable section

open scoped BigOperators

namespace Cert.Dist

open Idealize.ShloMosaic Idealize.ShloMosaic.ValueIdx

/-- Four families of 512 entries laid end to end: entry `d` of the 2048 is entry `d - 512·n` of family `n`, where
    `n` is the quarter `d` falls in. -/
def pick4 {α : Type} (f0 f1 f2 f3 : Fin 512 → α) (d : Fin 2048) : α :=
  if h0 : d.val < 512 then f0 ⟨d.val, h0⟩
  else if h1 : d.val < 1024 then f1 ⟨d.val - 512, by omega⟩
  else if h2 : d.val < 1536 then f2 ⟨d.val - 1024, by omega⟩
  else f3 ⟨d.val - 1536, by have := d.isLt; omega⟩

/-- One branch of the feature map on one row: entry `j` is `max (∑ k, x k · W j k + b j) 0`. -/
def unit (xr : Fin 1024 → EReal) (W : Fin 512 → Fin 1024 → EReal) (b : Fin 512 → EReal) (j : Fin 512) : EReal :=
  max ((∑ k : Fin 1024, xr k * W j k) + b j) 0

/-- A sample's 2048 features: the four branches end to end, the last three sharing weights and bias. -/
def feat (x0 x1 x2 x3 : Fin 1024 → EReal) (Wf : Fin 512 → Fin 1024 → EReal) (bf : Fin 512 → EReal)
    (Wr : Fin 512 → Fin 1024 → EReal) (br : Fin 512 → EReal) : Fin 2048 → EReal :=
  pick4 (unit x0 Wf bf) (unit x1 Wr br) (unit x2 Wr br) (unit x3 Wr br)

/-- The scaled distance from its three sums: `sqrt (max ((f2 + c2) - 2 · fc) 0) · s`, the constants as their patterns. -/
def scaledDist (f2 c2 fc : EReal) : EReal :=
  Ideal.sqrt (max ((f2 + c2) - Ideal.ofBits .f32 0x40000000#32 * fc) 0) * Ideal.ofBits .f32 0xBDCCCCCD#32

/-- The readout of a feature row against a centre row. -/
def entry (f cr : Fin 2048 → EReal) : EReal :=
  scaledDist (∑ d : Fin 2048, f d * f d) (∑ d : Fin 2048, cr d * cr d) (∑ d : Fin 2048, f d * cr d)

/-- The whole result as one function of the nine argument arrays: at sample `p` and centre `q`, the readout of
    sample `p`'s features (rows `p` of the four inputs) against row `q` of the centres. -/
def G (X0 X1 X2 X3 : (⟨2, ![4096, 1024]⟩ : Shape).Idx → EReal) (Wf : (⟨2, ![512, 1024]⟩ : Shape).Idx → EReal)
    (bf : (⟨1, ![512]⟩ : Shape).Idx → EReal) (Wr : (⟨2, ![512, 1024]⟩ : Shape).Idx → EReal)
    (br : (⟨1, ![512]⟩ : Shape).Idx → EReal) (Cn : (⟨2, ![1000, 2048]⟩ : Shape).Idx → EReal)
    (p : Fin 4096) (q : Fin 1000) : EReal :=
  entry (feat (fun k => X0 (ix2 p k)) (fun k => X1 (ix2 p k)) (fun k => X2 (ix2 p k)) (fun k => X3 (ix2 p k))
      (fun j k => Wf (ix2 j k)) (fun j => bf (ix1 j)) (fun j k => Wr (ix2 j k)) (fun j => br (ix1 j)))
    (fun d => Cn (ix2 q d))

/-- The same as an array of shape 4096 × 1000. -/
def Garr (X0 X1 X2 X3 : (⟨2, ![4096, 1024]⟩ : Shape).Idx → EReal) (Wf : (⟨2, ![512, 1024]⟩ : Shape).Idx → EReal)
    (bf : (⟨1, ![512]⟩ : Shape).Idx → EReal) (Wr : (⟨2, ![512, 1024]⟩ : Shape).Idx → EReal)
    (br : (⟨1, ![512]⟩ : Shape).Idx → EReal) (Cn : (⟨2, ![1000, 2048]⟩ : Shape).Idx → EReal) :
    (⟨2, ![4096, 1000]⟩ : Shape).Idx → EReal :=
  fun i => G X0 X1 X2 X3 Wf bf Wr br Cn (i 0) (i 1)

theorem Garr_ix2 (X0 X1 X2 X3 : (⟨2, ![4096, 1024]⟩ : Shape).Idx → EReal) (Wf : (⟨2, ![512, 1024]⟩ : Shape).Idx → EReal)
    (bf : (⟨1, ![512]⟩ : Shape).Idx → EReal) (Wr : (⟨2, ![512, 1024]⟩ : Shape).Idx → EReal)
    (br : (⟨1, ![512]⟩ : Shape).Idx → EReal) (Cn : (⟨2, ![1000, 2048]⟩ : Shape).Idx → EReal) (p : Fin 4096) (q : Fin 1000) :
    Garr X0 X1 X2 X3 Wf bf Wr br Cn (ix2 p q) = G X0 X1 X2 X3 Wf bf Wr br Cn p q := rfl

end Cert.Dist

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.KernelBranch.lean ====
/-
  ONE BRANCH OF THE FEATURE MAP ON A BLOCK OF 256 SAMPLES, READ AT AN ENTRY.

  The body multiplies a 256 × 1024 block of rows by a 1024 × 512 matrix (the weights, already transposed) into a zero
  accumulator, adds the bias row to every row and takes the maximum with zero. At entry `(p, j)` that is
  `max (∑ k, x (p, k) · w (k, j) + b (0, j)) 0`: the product is the plain sum over the contracted axis, the bias row is
  read at column `j` whatever the row, the narrowing of the block to 16 bits is the identity on the extended reals, and
  the zero pattern is the number zero.
-/
import proofs.«136710_j69372311765581_2_alg».proof.Proof.Gen.KernelIdeal.Skeleton
import proofs.«136710_j69372311765581_2_alg».proof.Proof.RowDistance
import proofs.«136710_j69372311765581_2_alg».proof.Proof.LibMatOps
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.Dist

/-- The affine part at `(p, j)`: the block's row `p` against column `j` of the matrix, plus the bias at `j`. -/
theorem affine_apply (x : FVec Ideal S256x1024 .f32) (w : FVec Ideal S1024x512 .bf16) (b : FVec Ideal S1x512 .f32)
    (hb : FTy.bits .bf16 < FTy.bits .f32) (hbr : S1x512.Broadcasts S256x512) (p : Fin 256) (j : Fin 512) :
    addf (matmul dot_S256x1024_S1024x512_S256x512_1_0_0_1_n_n none (truncf .bf16 x hb) w (constant S256x512 .f32 0x00000000#32))
        (broadcastTo S256x512 b hbr) (ix2 p j)
      = (∑ k : Fin 1024, x (ix2 p k) * w (ix2 k j)) + b (ix2 (0 : Fin 1) j) := by
  rw [addf_apply, broadcastTo_1b_ab_apply]
  exact congrArg (· + b (ix2 (0 : Fin 1) j)) (Cert.MatOps.matmul_plain_apply _ none (truncf .bf16 x hb) w p j)

/-- The rectified branch at `(p, j)` is the specification's `unit` of row `p`. -/
theorem branch_apply (x : FVec Ideal S256x1024 .f32) (w : FVec Ideal S1024x512 .bf16) (b : FVec Ideal S1x512 .f32)
    (hb : FTy.bits .bf16 < FTy.bits .f32) (hbr : S1x512.Broadcasts S256x512) (p : Fin 256) (j : Fin 512) :
    maximumf (addf (matmul dot_S256x1024_S1024x512_S256x512_1_0_0_1_n_n none (truncf .bf16 x hb) w (constant S256x512 .f32 0x00000000#32))
        (broadcastTo S256x512 b hbr)) (broadcast S256x512 (Scalar.ofBits .f32 0x00000000#32)) (ix2 p j)
      = unit (fun k => x (ix2 p k)) (fun j k => w (ix2 k j)) (fun j => b (ix2 (0 : Fin 1) j)) j := by
  unfold unit
  rw [maximumf_apply, affine_apply, broadcast_apply]
  exact congrArg (max _) Ideal.ofBits_zero_f32

/-- The first branch's payload. -/
theorem pay4_apply (v0 : Vec Ideal S1024x512 .bf16) (v4 : Vec Ideal S1x512 .f32) (v8 : Vec Ideal S256x1024 .f32)
    (p : Fin 256) (j : Fin 512) :
    k0_pay4 (F := Ideal) v0 v4 v8 (ix2 p j)
      = unit (fun k => v8 (ix2 p k)) (fun j k => v0 (ix2 k j)) (fun j => v4 (ix2 (0 : Fin 1) j)) j := by
  unfold k0_pay4
  rw [shapeCast_self, shapeCast_self]
  exact branch_apply v8 v0 v4 _ _ p j

/-- The second branch's payload. -/
theorem pay5_apply (v2 : Vec Ideal S1024x512 .bf16) (v6 : Vec Ideal S1x512 .f32) (v15 : Vec Ideal S256x1024 .f32)
    (p : Fin 256) (j : Fin 512) :
    k0_pay5 (F := Ideal) v2 v6 v15 (ix2 p j)
      = unit (fun k => v15 (ix2 p k)) (fun j k => v2 (ix2 k j)) (fun j => v6 (ix2 (0 : Fin 1) j)) j := by
  unfold k0_pay5 k0_pay2 k0_pay3
  rw [shapeCast_self, shapeCast_self]
  exact branch_apply v15 v2 v6 _ _ p j

/-- The third branch's payload. -/
theorem pay6_apply (v2 : Vec Ideal S1024x512 .bf16) (v6 : Vec Ideal S1x512 .f32) (v22 : Vec Ideal S256x1024 .f32)
    (p : Fin 256) (j : Fin 512) :
    k0_pay6 (F := Ideal) v2 v6 v22 (ix2 p j)
      = unit (fun k => v22 (ix2 p k)) (fun j k => v2 (ix2 k j)) (fun j => v6 (ix2 (0 : Fin 1) j)) j := by
  unfold k0_pay6 k0_pay2 k0_pay3
  rw [shapeCast_self, shapeCast_self]
  exact branch_apply v22 v2 v6 _ _ p j

/-- The fourth branch: its affine part is one payload, the zero it is rectified against another. -/
theorem pay7_apply (v2 : Vec Ideal S1024x512 .bf16) (v6 : Vec Ideal S1x512 .f32) (v29 : Vec Ideal S256x1024 .f32)
    (p : Fin 256) (j : Fin 512) :
    maximumf (k0_pay7 (F := Ideal) v2 v6 v29) (k0_pay8 (F := Ideal)) (ix2 p j)
      = unit (fun k => v29 (ix2 p k)) (fun j k => v2 (ix2 k j)) (fun j => v6 (ix2 (0 : Fin 1) j)) j := by
  unfold k0_pay7 k0_pay8 k0_pay2 k0_pay3
  rw [shapeCast_self, shapeCast_self]
  exact branch_apply v29 v2 v6 _ _ p j

end Cert.KernelIdeal.BlockValue

end
-- ==== Proof.Quarters.lean ====
/-
  FOUR BLOCKS OF 512 COLUMNS JOINED SIDE BY SIDE, READ AT AN INDEX.

  Joining four `a × 512` arrays along the columns gives an `a × 2048` array whose entry `(p, d)` is entry
  `(p, d - 512·n)` of piece `n`, `n` the quarter `d` falls in: the columns before piece `n` number `512·n`.
  Generic in the number of rows and in the element type.
-/
import Idealize.ShloMosaic.Lib.Pipeline.Value
import proofs.«136710_j69372311765581_2_alg».proof.Proof.RowDistance

noncomputable section

namespace Cert.Dist

open Idealize.ShloMosaic Idealize.ShloMosaic.ValueIdx

/-- Row `p` of the join of four `a × 512` pieces is the four pieces' rows `p` laid end to end. -/
theorem join4_apply {a : ℕ} {α : Type} (x0 x1 x2 x3 : (⟨2, ![a, 512]⟩ : Shape).Idx → α)
    (h : Shape.Concatenates [(⟨2, ![a, 512]⟩ : Shape), ⟨2, ![a, 512]⟩, ⟨2, ![a, 512]⟩, ⟨2, ![a, 512]⟩] ⟨2, ![a, 2048]⟩ 1)
    (p : Fin a) (d : Fin 2048) :
    concatenate ⟨2, ![a, 2048]⟩ 1 [⟨⟨2, ![a, 512]⟩, x0⟩, ⟨⟨2, ![a, 512]⟩, x1⟩, ⟨⟨2, ![a, 512]⟩, x2⟩, ⟨⟨2, ![a, 512]⟩, x3⟩] h (ix2 p d)
      = pick4 (fun j => x0 (ix2 p j)) (fun j => x1 (ix2 p j)) (fun j => x2 (ix2 p j)) (fun j => x3 (ix2 p j)) d := by
  have hd := d.isLt
  have off : ∀ (e : Fin 512) (b : Fin 2), b.cast (rfl : (2 : ℕ) = 2) ≠ (1 : Fin 2) →
      ((ix2 p e : (⟨2, ![a, 512]⟩ : Shape).Idx) b).val = ((ix2 p d : (⟨2, ![a, 2048]⟩ : Shape).Idx) (b.cast rfl)).val := by
    intro e b hb
    match b with
    | ⟨0, _⟩ => rfl
    | ⟨1, _⟩ => exact absurd rfl hb
  unfold pick4
  split_ifs with h0 h1 h2
  · exact concatenate_apply_piece 1 [⟨⟨2, ![a, 512]⟩, x0⟩, ⟨⟨2, ![a, 512]⟩, x1⟩, ⟨⟨2, ![a, 512]⟩, x2⟩, ⟨⟨2, ![a, 512]⟩, x3⟩] h (ix2 p d) 0 (by show 0 < 4; omega) _ x0 rfl rfl 0 rfl (ix2 p ⟨d.val, h0⟩) (off _)
      (by show 0 + d.val = d.val; omega)
  · exact concatenate_apply_piece 1 [⟨⟨2, ![a, 512]⟩, x0⟩, ⟨⟨2, ![a, 512]⟩, x1⟩, ⟨⟨2, ![a, 512]⟩, x2⟩, ⟨⟨2, ![a, 512]⟩, x3⟩] h (ix2 p d) 1 (by show 1 < 4; omega) _ x1 rfl rfl 512 rfl (ix2 p ⟨d.val - 512, by omega⟩) (off _)
      (by show 512 + (d.val - 512) = d.val; omega)
  · exact concatenate_apply_piece 1 [⟨⟨2, ![a, 512]⟩, x0⟩, ⟨⟨2, ![a, 512]⟩, x1⟩, ⟨⟨2, ![a, 512]⟩, x2⟩, ⟨⟨2, ![a, 512]⟩, x3⟩] h (ix2 p d) 2 (by show 2 < 4; omega) _ x2 rfl rfl 1024 rfl (ix2 p ⟨d.val - 1024, by omega⟩) (off _)
      (by show 1024 + (d.val - 1024) = d.val; omega)
  · exact concatenate_apply_piece 1 [⟨⟨2, ![a, 512]⟩, x0⟩, ⟨⟨2, ![a, 512]⟩, x1⟩, ⟨⟨2, ![a, 512]⟩, x2⟩, ⟨⟨2, ![a, 512]⟩, x3⟩] h (ix2 p d) 3 (by show 3 < 4; omega) _ x3 rfl rfl 1536 rfl (ix2 p ⟨d.val - 1536, by omega⟩) (off _)
      (by show 1536 + (d.val - 1536) = d.val; omega)

end Cert.Dist

end
-- ==== Proof.LibColumnCast.lean ====
/-
  A vector recast as a one-column matrix, read at an index. A row sum kept as a column (a sum over the last axis with
  the axis kept) is stored by recasting the vector of `a` sums to shape `a × 1`; row-major order puts entry `p` of the
  vector at `(p, 0)`.
-/
import Idealize.ShloMosaic.Lib.ValueIdx
import Idealize.ShloMosaic.Lib.Pipeline.Value

namespace Cert.LibColumnCast

open Idealize.ShloMosaic Idealize.ShloMosaic.ValueIdx

/-- A vector of `a` entries recast as an `a × 1` column reads, at `(p, z)`, the vector's entry `p`, whatever the
    unit coordinate `z`: both sit at position `p` in row-major order. Generic in the extent and the element type. -/
theorem column_cast {a : ℕ} {α : Type} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Cert.LibColumnCast
-- ==== Proof.KernelPayload.lean ====
/-
  WHAT THE BODY STORES, READ AT AN ENTRY.

  From the block of 256 × 2048 features `C`, the transposed centres `cT` (2048 × 1000) and the row `c2` of the
  centres' squared norms, the body forms, at `(p, q)`,

      sqrt (max ((∑ d, C (p, d)² + c2 (0, q)) - 2 · ∑ d, C (p, d) · cT (d, q)) 0) · s :

  the sum of squares along a row kept as a column and spread over the 1000 columns, the row of norms spread over the
  256 rows, the product with the centres the plain sum over the 2048 features. The feature block itself is the four
  rectified branches joined side by side, so its row `p` is the specification's `feat` of the four input rows `p`.
-/
import proofs.«136710_j69372311765581_2_alg».proof.Proof.KernelBranch
import proofs.«136710_j69372311765581_2_alg».proof.Proof.Quarters
import proofs.«136710_j69372311765581_2_alg».proof.Proof.LibColumnCast

noncomputable section

open scoped BigOperators

namespace Cert.KernelIdeal.BlockValue

open Cert.KernelIdeal Cert.KernelIdeal.Gen Idealize.ShloMosaic Idealize.ShloMosaic.ValueIdx Cert.Dist

/-- The sum of squares of row `p`, kept as a column and spread over the columns, read at `(p, q)`. -/
theorem rowSquares_apply (C : FVec Ideal S256x2048 .f32) (hred : S256x2048.Reduces [1] S256) (hφ : FKind.Formats .f32)
    (hacc : (0x00000000#32 : BitVec 32) = FKind.add.neutral .f32 hφ) (hsc : S256.ShapeCasts S256x1)
    (hb1 : S256x1.Broadcasts S256x1000) (p : Fin 256) (q : Fin 1000) :
    broadcastTo S256x1000 (shapeCast S256x1 (multiReduction .add [1] S256 (mulf C C) 0x00000000#32 hred hφ hacc) hsc) hb1 (ix2 p q)
      = ∑ d : Fin 2048, C (ix2 p d) * C (ix2 p d) := by
  rw [Cert.MatOps.broadcastTo_a1_ab_apply, Cert.LibColumnCast.column_cast]
  refine (Ideal.multiReduction_add_single (mulf C C) 0x00000000#32 hred hφ hacc (ix1 p)).trans ?_
  refine Finset.sum_congr rfl fun d _ => ?_
  have e : hred.lift (ix1 p) d = ix2 p d :=
    funext fun a => Fin.ext (by match a with | ⟨0, _⟩ => rfl | ⟨1, _⟩ => rfl)
  rw [e]
  rfl

/-- The readout at `(p, q)` from a feature block, the transposed centres and the row of squared norms. -/
theorem readout_apply (C : FVec Ideal S256x2048 .f32) (cT : FVec Ideal S2048x1000 .bf16) (c2 : FVec Ideal S1x1000 .f32)
    (hred : S256x2048.Reduces [1] S256) (hφ : FKind.Formats .f32)
    (hacc : (0x00000000#32 : BitVec 32) = FKind.add.neutral .f32 hφ) (hsc : S256.ShapeCasts S256x1)
    (hb1 : S256x1.Broadcasts S256x1000) (hb2 : S1x1000.Broadcasts S256x1000) (hb : FTy.bits .bf16 < FTy.bits .f32)
    (p : Fin 256) (q : Fin 1000) :
    mulf (sqrt (maximumf (subf
          (addf (broadcastTo S256x1000 (shapeCast S256x1 (multiReduction .add [1] S256 (mulf C C) 0x00000000#32 hred hφ hacc) hsc) hb1)
            (broadcastTo S256x1000 c2 hb2))
          (mulf (broadcast S256x1000 (Scalar.ofBits .f32 0x40000000#32))
            (matmul dot_S256x2048_S2048x1000_S256x1000_1_0_0_1_n_n none (truncf .bf16 C hb) cT (constant S256x1000 .f32 0x00000000#32))))
        (broadcast S256x1000 (Scalar.ofBits .f32 0x00000000#32))))
      (broadcast S256x1000 (Scalar.ofBits .f32 0xBDCCCCCD#32)) (ix2 p q)
    = scaledDist (∑ d : Fin 2048, C (ix2 p d) * C (ix2 p d)) (c2 (ix2 (0 : Fin 1) q)) (∑ d : Fin 2048, C (ix2 p d) * cT (ix2 d q)) := by
  have h1 := rowSquares_apply C hred hφ hacc hsc hb1 p q
  have h2 : broadcastTo S256x1000 c2 hb2 (ix2 p q) = c2 (ix2 (0 : Fin 1) q) := broadcastTo_1b_ab_apply c2 hb2 p q
  have h3 : matmul dot_S256x2048_S2048x1000_S256x1000_1_0_0_1_n_n none (truncf .bf16 C hb) cT (constant S256x1000 .f32 0x00000000#32) (ix2 p q)
      = ∑ d : Fin 2048, C (ix2 p d) * cT (ix2 d q) := Cert.MatOps.matmul_plain_apply _ none (truncf .bf16 C hb) cT p q
  unfold scaledDist
  rw [← Ideal.ofBits_zero_f32, ← h1, ← h2, ← h3]
  rfl

/-- The feature block's row `p`: the four branches' rows `p` end to end. -/
theorem features_apply (x0 x1 x2 x3 : Vec Ideal S256x1024 .f32) (w4 : Vec Ideal S1024x512 .bf16) (b5 : Vec Ideal S1x512 .f32)
    (w6 : Vec Ideal S1024x512 .bf16) (b7 : Vec Ideal S1x512 .f32)
    (hc : Shape.Concatenates [S256x512, S256x512, S256x512, S256x512] S256x2048 1) (p : Fin 256) (d : Fin 2048) :
    concatenate S256x2048 1 [⟨S256x512, k0_pay4 (F := Ideal) w4 b5 x0⟩, ⟨S256x512, k0_pay5 (F := Ideal) w6 b7 x1⟩,
        ⟨S256x512, k0_pay6 (F := Ideal) w6 b7 x2⟩, ⟨S256x512, maximumf (k0_pay7 (F := Ideal) w6 b7 x3) (k0_pay8 (F := Ideal))⟩] hc (ix2 p d)
      = feat (fun k => x0 (ix2 p k)) (fun k => x1 (ix2 p k)) (fun k => x2 (ix2 p k)) (fun k => x3 (ix2 p k))
          (fun j k => w4 (ix2 k j)) (fun j => b5 (ix2 (0 : Fin 1) j)) (fun j k => w6 (ix2 k j)) (fun j => b7 (ix2 (0 : Fin 1) j)) d := by
  refine (join4_apply _ _ _ _ hc p d).trans ?_
  unfold feat
  rw [funext fun j => pay4_apply w4 b5 x0 p j, funext fun j => pay5_apply w6 b7 x1 p j,
    funext fun j => pay6_apply w6 b7 x2 p j, funext fun j => pay7_apply w6 b7 x3 p j]

/-- The body's one store at `(p, q)`: the readout of the features of rows `p` against column `q` of the transposed
    centres, with that centre's squared norm read from the row of norms. -/
theorem payload_apply (x0 x1 x2 x3 : Vec Ideal S256x1024 .f32) (w4 : Vec Ideal S1024x512 .bf16) (b5 : Vec Ideal S1x512 .f32)
    (w6 : Vec Ideal S1024x512 .bf16) (b7 : Vec Ideal S1x512 .f32) (cT : Vec Ideal S2048x1000 .bf16) (c2 : Vec Ideal S1x1000 .f32)
    (p : Fin 256) (q : Fin 1000) :
    k0_pay1 (F := Ideal) (k0_pay4 w4 b5 x0) (k0_pay5 w6 b7 x1) (k0_pay6 w6 b7 x2) (k0_pay7 w6 b7 x3) k0_pay8 cT c2 (ix2 p q)
      = scaledDist (∑ d : Fin 2048,
            feat (fun k => x0 (ix2 p k)) (fun k => x1 (ix2 p k)) (fun k => x2 (ix2 p k)) (fun k => x3 (ix2 p k))
              (fun j k => w4 (ix2 k j)) (fun j => b5 (ix2 (0 : Fin 1) j)) (fun j k => w6 (ix2 k j)) (fun j => b7 (ix2 (0 : Fin 1) j)) d
            * feat (fun k => x0 (ix2 p k)) (fun k => x1 (ix2 p k)) (fun k => x2 (ix2 p k)) (fun k => x3 (ix2 p k))
              (fun j k => w4 (ix2 k j)) (fun j => b5 (ix2 (0 : Fin 1) j)) (fun j k => w6 (ix2 k j)) (fun j => b7 (ix2 (0 : Fin 1) j)) d)
          (c2 (ix2 (0 : Fin 1) q))
          (∑ d : Fin 2048,
            feat (fun k => x0 (ix2 p k)) (fun k => x1 (ix2 p k)) (fun k => x2 (ix2 p k)) (fun k => x3 (ix2 p k))
              (fun j k => w4 (ix2 k j)) (fun j => b5 (ix2 (0 : Fin 1) j)) (fun j k => w6 (ix2 k j)) (fun j => b7 (ix2 (0 : Fin 1) j)) d
            * cT (ix2 d q)) := by
  unfold k0_pay1
  rw [shapeCast_self, shapeCast_self]
  refine (readout_apply _ cT c2 _ _ _ _ _ _ _ p q).trans ?_
  simp only [features_apply]

end Cert.KernelIdeal.BlockValue

end
-- ==== Proof.KernelArray.lean ====
/-
  FROM BLOCKS TO THE ARRAY.

  The grid has 16 points. At point `t` the four input windows hold rows `256·t … 256·t + 255` of their arguments,
  the six resident windows hold their whole arrays (the transposed weights, the bias rows, the transposed centres,
  the row of squared norms), and the body's store is written back to rows `256·t … 256·t + 255` of the result. An
  entry `(p, q)` of the block is therefore the specification at sample `256·t + p` and centre `q`; the 16 blocks
  tile the 4096 rows, row `r` lying in block `r / 256`; so the result array is the specification's.
-/
import proofs.«136710_j69372311765581_2_alg».proof.Proof.Gen.KernelIdeal.Value
import proofs.«136710_j69372311765581_2_alg».proof.Proof.HostArrays
import proofs.«136710_j69372311765581_2_alg».proof.Proof.KernelPayload
import Idealize.ShloMosaic.Lib.Pipeline.Value

noncomputable section

open scoped BigOperators

namespace Cert.KernelIdeal.BlockValue

open Cert.KernelIdeal Cert.KernelIdeal.Gen Idealize.ShloMosaic Idealize.ShloMosaic.TcCoe Idealize.SL.Sem
open Idealize.ShloMosaic.ValueIdx Cert.Dist
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- The index maps of the windows that move with the grid: block `(t, 0)` at point `t` (decided over the 16 points). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_10.index t (0 : Fin 2) = t.val ∧ win0_10.index t (1 : Fin 2) = 0 :=
  (by decide +kernel : ∀ t : Fin grid0.N, _)

/-- The index maps of the resident windows: block `(0, 0)` at every point. -/
theorem idx_resident : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Input window 0's block at point `t`: rows `256·t … 256·t + 255` of its argument. -/
theorem rows0 (c : Dev nD) (t : Fin cfg0.N) (p : Fin 256) (k : Fin 1024) (P : Fin 4096) (hP : P.val = 256 * t.val + p.val) :
    (iblk m c 0 t : Vec Ideal S256x1024 .f32) (ix2 p k)
      = (m ((c : Thread nD τ).loc main_arg0) : S4096x1024.Idx → EReal) (ix2 P k) := by
  have hi : win0_0.index t (0 : Fin 2) = t.val ∧ win0_0.index t (1 : Fin 2) = 0 := by
    have := idx_rows t; tauto
  unfold iblk
  rw [View.read_apply]
  show V m c main_arg0 _ = _
  rw [V_main_arg0]
  refine congrArg (m ((c : Thread nD τ).loc main_arg0) : S4096x1024.Idx → EReal) (funext fun a => Fin.ext ?_)
  match a with
  | ⟨0, _⟩ => show win0_0.index t (0 : Fin 2) * 256 + 1 * p.val = P.val; rw [hi.1, hP]; omega
  | ⟨1, _⟩ => show win0_0.index t (1 : Fin 2) * 1024 + 1 * k.val = k.val; rw [hi.2]; omega

/-- Input window 1's block at point `t`: rows `256·t … 256·t + 255` of its argument. -/
theorem rows1 (c : Dev nD) (t : Fin cfg0.N) (p : Fin 256) (k : Fin 1024) (P : Fin 4096) (hP : P.val = 256 * t.val + p.val) :
    (iblk m c 1 t : Vec Ideal S256x1024 .f32) (ix2 p k)
      = (m ((c : Thread nD τ).loc main_arg1) : S4096x1024.Idx → EReal) (ix2 P k) := by
  have hi : win0_1.index t (0 : Fin 2) = t.val ∧ win0_1.index t (1 : Fin 2) = 0 := by
    have := idx_rows t; tauto
  unfold iblk
  rw [View.read_apply]
  show V m c main_arg1 _ = _
  rw [V_main_arg1]
  refine congrArg (m ((c : Thread nD τ).loc main_arg1) : S4096x1024.Idx → EReal) (funext fun a => Fin.ext ?_)
  match a with
  | ⟨0, _⟩ => show win0_1.index t (0 : Fin 2) * 256 + 1 * p.val = P.val; rw [hi.1, hP]; omega
  | ⟨1, _⟩ => show win0_1.index t (1 : Fin 2) * 1024 + 1 * k.val = k.val; rw [hi.2]; omega

/-- Input window 2's block at point `t`: rows `256·t … 256·t + 255` of its argument. -/
theorem rows2 (c : Dev nD) (t : Fin cfg0.N) (p : Fin 256) (k : Fin 1024) (P : Fin 4096) (hP : P.val = 256 * t.val + p.val) :
    (iblk m c 2 t : Vec Ideal S256x1024 .f32) (ix2 p k)
      = (m ((c : Thread nD τ).loc main_arg2) : S4096x1024.Idx → EReal) (ix2 P k) := by
  have hi : win0_2.index t (0 : Fin 2) = t.val ∧ win0_2.index t (1 : Fin 2) = 0 := by
    have := idx_rows t; tauto
  unfold iblk
  rw [View.read_apply]
  show V m c main_arg2 _ = _
  rw [V_main_arg2]
  refine congrArg (m ((c : Thread nD τ).loc main_arg2) : S4096x1024.Idx → EReal) (funext fun a => Fin.ext ?_)
  match a with
  | ⟨0, _⟩ => show win0_2.index t (0 : Fin 2) * 256 + 1 * p.val = P.val; rw [hi.1, hP]; omega
  | ⟨1, _⟩ => show win0_2.index t (1 : Fin 2) * 1024 + 1 * k.val = k.val; rw [hi.2]; omega

/-- Input window 3's block at point `t`: rows `256·t … 256·t + 255` of its argument. -/
theorem rows3 (c : Dev nD) (t : Fin cfg0.N) (p : Fin 256) (k : Fin 1024) (P : Fin 4096) (hP : P.val = 256 * t.val + p.val) :
    (iblk m c 3 t : Vec Ideal S256x1024 .f32) (ix2 p k)
      = (m ((c : Thread nD τ).loc main_arg3) : S4096x1024.Idx → EReal) (ix2 P k) := by
  have hi : win0_3.index t (0 : Fin 2) = t.val ∧ win0_3.index t (1 : Fin 2) = 0 := by
    have := idx_rows t; tauto
  unfold iblk
  rw [View.read_apply]
  show V m c main_arg3 _ = _
  rw [V_main_arg3]
  refine congrArg (m ((c : Thread nD τ).loc main_arg3) : S4096x1024.Idx → EReal) (funext fun a => Fin.ext ?_)
  match a with
  | ⟨0, _⟩ => show win0_3.index t (0 : Fin 2) * 256 + 1 * p.val = P.val; rw [hi.1, hP]; omega
  | ⟨1, _⟩ => show win0_3.index t (1 : Fin 2) * 1024 + 1 * k.val = k.val; rw [hi.2]; omega

/-- Window 4's block is the whole first weight matrix, transposed. -/
theorem whole4 (c : Dev nD) (t : Fin cfg0.N) (a0 : Fin 1024) (a1 : Fin 512) :
    (iblk m c 4 t : Vec Ideal S1024x512 .bf16) (ix2 a0 a1) = (m ((c : Thread nD τ).loc main_arg4) : S512x1024.Idx → EReal) (ix2 a1 a0) := by
  have hi : win0_4.index t (0 : Fin 2) = 0 ∧ win0_4.index t (1 : Fin 2) = 0 := by
    have := idx_resident t; tauto
  refine Eq.trans ?_ (V_v1_apply m c a0 a1)
  unfold iblk
  rw [View.read_apply]
  show V m c main_v1 _ = _
  refine congrArg (V m c main_v1 : S1024x512.Idx → EReal) (funext fun a => Fin.ext ?_)
  match a with
  | ⟨0, _⟩ => show win0_4.index t (0 : Fin 2) * 1024 + 1 * a0.val = a0.val; rw [hi.1]; omega
  | ⟨1, _⟩ => show win0_4.index t (1 : Fin 2) * 512 + 1 * a1.val = a1.val; rw [hi.2]; omega

/-- Window 5's block is the first bias as one row. -/
theorem whole5 (c : Dev nD) (t : Fin cfg0.N) (a0 : Fin 1) (a1 : Fin 512) :
    (iblk m c 5 t : Vec Ideal S1x512 .f32) (ix2 a0 a1) = (m ((c : Thread nD τ).loc main_arg5) : S512.Idx → EReal) (ix1 a1) := by
  have hi : win0_5.index t (0 : Fin 2) = 0 ∧ win0_5.index t (1 : Fin 2) = 0 := by
    have := idx_resident t; tauto
  refine Eq.trans ?_ (V_v4_apply m c a0 a1)
  unfold iblk
  rw [View.read_apply]
  show V m c main_v4 _ = _
  refine congrArg (V m c main_v4 : S1x512.Idx → EReal) (funext fun a => Fin.ext ?_)
  match a with
  | ⟨0, _⟩ => show win0_5.index t (0 : Fin 2) * 1 + 1 * a0.val = a0.val; rw [hi.1]; omega
  | ⟨1, _⟩ => show win0_5.index t (1 : Fin 2) * 512 + 1 * a1.val = a1.val; rw [hi.2]; omega

/-- Window 6's block is the whole second weight matrix, transposed. -/
theorem whole6 (c : Dev nD) (t : Fin cfg0.N) (a0 : Fin 1024) (a1 : Fin 512) :
    (iblk m c 6 t : Vec Ideal S1024x512 .bf16) (ix2 a0 a1) = (m ((c : Thread nD τ).loc main_arg6) : S512x1024.Idx → EReal) (ix2 a1 a0) := by
  have hi : win0_6.index t (0 : Fin 2) = 0 ∧ win0_6.index t (1 : Fin 2) = 0 := by
    have := idx_resident t; tauto
  refine Eq.trans ?_ (V_v3_apply m c a0 a1)
  unfold iblk
  rw [View.read_apply]
  show V m c main_v3 _ = _
  refine congrArg (V m c main_v3 : S1024x512.Idx → EReal) (funext fun a => Fin.ext ?_)
  match a with
  | ⟨0, _⟩ => show win0_6.index t (0 : Fin 2) * 1024 + 1 * a0.val = a0.val; rw [hi.1]; omega
  | ⟨1, _⟩ => show win0_6.index t (1 : Fin 2) * 512 + 1 * a1.val = a1.val; rw [hi.2]; omega

/-- Window 7's block is the second bias as one row. -/
theorem whole7 (c : Dev nD) (t : Fin cfg0.N) (a0 : Fin 1) (a1 : Fin 512) :
    (iblk m c 7 t : Vec Ideal S1x512 .f32) (ix2 a0 a1) = (m ((c : Thread nD τ).loc main_arg7) : S512.Idx → EReal) (ix1 a1) := by
  have hi : win0_7.index t (0 : Fin 2) = 0 ∧ win0_7.index t (1 : Fin 2) = 0 := by
    have := idx_resident t; tauto
  refine Eq.trans ?_ (V_v5_apply m c a0 a1)
  unfold iblk
  rw [View.read_apply]
  show V m c main_v5 _ = _
  refine congrArg (V m c main_v5 : S1x512.Idx → EReal) (funext fun a => Fin.ext ?_)
  match a with
  | ⟨0, _⟩ => show win0_7.index t (0 : Fin 2) * 1 + 1 * a0.val = a0.val; rw [hi.1]; omega
  | ⟨1, _⟩ => show win0_7.index t (1 : Fin 2) * 512 + 1 * a1.val = a1.val; rw [hi.2]; omega

/-- Window 8's block is the whole array of centres, transposed. -/
theorem whole8 (c : Dev nD) (t : Fin cfg0.N) (a0 : Fin 2048) (a1 : Fin 1000) :
    (iblk m c 8 t : Vec Ideal S2048x1000 .bf16) (ix2 a0 a1) = (m ((c : Thread nD τ).loc main_arg8) : S1000x2048.Idx → EReal) (ix2 a1 a0) := by
  have hi : win0_8.index t (0 : Fin 2) = 0 ∧ win0_8.index t (1 : Fin 2) = 0 := by
    have := idx_resident t; tauto
  refine Eq.trans ?_ (V_v7_apply m c a0 a1)
  unfold iblk
  rw [View.read_apply]
  show V m c main_v7 _ = _
  refine congrArg (V m c main_v7 : S2048x1000.Idx → EReal) (funext fun a => Fin.ext ?_)
  match a with
  | ⟨0, _⟩ => show win0_8.index t (0 : Fin 2) * 2048 + 1 * a0.val = a0.val; rw [hi.1]; omega
  | ⟨1, _⟩ => show win0_8.index t (1 : Fin 2) * 1000 + 1 * a1.val = a1.val; rw [hi.2]; omega

/-- Window 9's block is the row of the centres' squared norms. -/
theorem whole9 (c : Dev nD) (t : Fin cfg0.N) (a0 : Fin 1) (a1 : Fin 1000) :
    (iblk m c 9 t : Vec Ideal S1x1000 .f32) (ix2 a0 a1) = rowSq (m ((c : Thread nD τ).loc main_arg8)) a1 := by
  have hi : win0_9.index t (0 : Fin 2) = 0 ∧ win0_9.index t (1 : Fin 2) = 0 := by
    have := idx_resident t; tauto
  refine Eq.trans ?_ (V_v11_apply m c a0 a1)
  unfold iblk
  rw [View.read_apply]
  show V m c main_v11 _ = _
  refine congrArg (V m c main_v11 : S1x1000.Idx → EReal) (funext fun a => Fin.ext ?_)
  match a with
  | ⟨0, _⟩ => show win0_9.index t (0 : Fin 2) * 1 + 1 * a0.val = a0.val; rw [hi.1]; omega
  | ⟨1, _⟩ => show win0_9.index t (1 : Fin 2) * 1000 + 1 * a1.val = a1.val; rw [hi.2]; omega

/-- Entry `(p, q)` of the result's block at point `t` sits at `(256·t + p, q)` of the result. -/
theorem out_emb (t : Fin cfg0.N) (p : Fin 256) (q : Fin 1000) (P : Fin 4096) (hP : P.val = 256 * t.val + p.val) :
    ((cfg0.win 10).blk t).view.emb (ix2 p q) = (ix2 P q : S4096x1000.Idx) := by
  have hi : win0_10.index t (0 : Fin 2) = t.val ∧ win0_10.index t (1 : Fin 2) = 0 := by
    have := idx_rows t; tauto
  refine funext fun a => Fin.ext ?_
  match a with
  | ⟨0, _⟩ => show win0_10.index t (0 : Fin 2) * 256 + 1 * p.val = P.val; rw [hi.1, hP]; omega
  | ⟨1, _⟩ => show win0_10.index t (1 : Fin 2) * 1000 + 1 * q.val = q.val; rw [hi.2]; omega

/-- WHAT POINT `t` WRITES BACK is block `t` of the specification's array of the arguments. -/
theorem flushed_eq (c : Dev nD) (t : Fin cfg0.N) :
    (dats m 0 c).flushed 10 t = ((cfg0.win 10).blk t).view.read (Elt Ideal) (Garr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  have hN : cfg0.N = 16 := N_0
  rw [Cert.KernelIdeal.Value.flushed10]
  unfold out0_10
  rw [View.canon_unit_zero zeroOffsets]
  simp only [View.ld_unit_zero (S := S1024x512) zeroOffsets, View.ld_unit_zero (S := S1x512) zeroOffsets,
    View.ld_unit_zero (S := S256x1024) zeroOffsets, View.ld_unit_zero (S := S2048x1000) zeroOffsets,
    View.ld_unit_zero (S := S1x1000) zeroOffsets]
  funext y
  obtain ⟨p, q, rfl⟩ : ∃ (p : Fin 256) (q : Fin 1000), y = ix2 p q := ⟨y 0, y 1, eq_ix2 y⟩
  have ht := t.isLt
  let P : Fin 4096 := ⟨256 * t.val + p.val, by have := p.isLt; omega⟩
  show k0_pay1 (F := Ideal) (k0_pay4 (iblk m c 4 t) (iblk m c 5 t) (iblk m c 0 t)) (k0_pay5 (iblk m c 6 t) (iblk m c 7 t) (iblk m c 1 t))
      (k0_pay6 (iblk m c 6 t) (iblk m c 7 t) (iblk m c 2 t)) (k0_pay7 (iblk m c 6 t) (iblk m c 7 t) (iblk m c 3 t)) (k0_pay8 (F := Ideal))
      (iblk m c 8 t) (iblk m c 9 t) (ix2 p q)
    = Garr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 10).blk t).view.emb (ix2 p q))
  rw [out_emb t p q P rfl, Garr_ix2]
  show k0_pay1 (F := Ideal) (k0_pay4 (iblk m c 4 t) (iblk m c 5 t) (iblk m c 0 t)) (k0_pay5 (iblk m c 6 t) (iblk m c 7 t) (iblk m c 1 t))
      (k0_pay6 (iblk m c 6 t) (iblk m c 7 t) (iblk m c 2 t)) (k0_pay7 (iblk m c 6 t) (iblk m c 7 t) (iblk m c 3 t)) (k0_pay8 (F := Ideal))
      (iblk m c 8 t) (iblk m c 9 t) (ix2 p q) = _
  refine (payload_apply (iblk m c 0 t) (iblk m c 1 t) (iblk m c 2 t) (iblk m c 3 t) (iblk m c 4 t) (iblk m c 5 t)
    (iblk m c 6 t) (iblk m c 7 t) (iblk m c 8 t) (iblk m c 9 t) p q).trans ?_
  unfold G entry
  have r0 := fun k => rows0 m c t p k P rfl
  have r1 := fun k => rows1 m c t p k P rfl
  have r2 := fun k => rows2 m c t p k P rfl
  have r3 := fun k => rows3 m c t p k P rfl
  simp only [r0, r1, r2, r3, whole4, whole5, whole6, whole7, whole8, whole9, rowSq]

/-- An index of the result is in point `t`'s block iff each coordinate is in the block's range on its axis. -/
theorem mem_blk (t : Fin cfg0.N) (i : S4096x1000.Idx) :
    i ∈ ((cfg0.win 10).blk t).view.set ↔ ∀ a : Fin 2, win0_10.index t a * S256x1000.size a ≤ (i a).val
      ∧ (i a).val < win0_10.index t a * S256x1000.size a + S256x1000.size a := by
  show i ∈ ((View.whole main_v12).slice (win0_10.rect t)).set ↔ _
  rw [View.set_slice_whole, Rect.mem_set_unit]
  exact Iff.rfl

/-- The 16 blocks tile the result: row `r` lies in the block of point `r / 256`. -/
theorem covered (i : S4096x1000.Idx) :
    ∃ t : Fin cfg0.N, (cfg0.win 10).flush t = true ∧ i ∈ ((cfg0.win 10).blk t).view.set := by
  have hN : cfg0.N = 16 := N_0
  have h0 : (i 0).val < 4096 := (i 0).isLt
  have h1 : (i 1).val < 1000 := (i 1).isLt
  have hlt : (i 0).val / 256 < cfg0.N := by rw [hN]; omega
  have hi : win0_10.index ⟨(i 0).val / 256, hlt⟩ (0 : Fin 2) = (i 0).val / 256 ∧ win0_10.index ⟨(i 0).val / 256, hlt⟩ (1 : Fin 2) = 0 := by
    have := idx_rows ⟨(i 0).val / 256, hlt⟩; tauto
  refine ⟨⟨(i 0).val / 256, hlt⟩, flush0_10 _, ?_⟩
  rw [mem_blk]
  intro a
  match a with
  | ⟨0, _⟩ =>
    show win0_10.index ⟨(i 0).val / 256, hlt⟩ (0 : Fin 2) * 256 ≤ (i 0).val
      ∧ (i 0).val < win0_10.index ⟨(i 0).val / 256, hlt⟩ (0 : Fin 2) * 256 + 256
    rw [hi.1]; omega
  | ⟨1, _⟩ =>
    show win0_10.index ⟨(i 0).val / 256, hlt⟩ (1 : Fin 2) * 1000 ≤ (i 1).val
      ∧ (i 1).val < win0_10.index ⟨(i 0).val / 256, hlt⟩ (1 : Fin 2) * 1000 + 1000
    rw [hi.2]; omega

/-- THE RESULT ARRAY after the run is the specification's array of the arguments. -/
theorem final (c : Dev nD) : (dats m 0 c).arrAt 10 cfg0.N = Garr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 10 (Garr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed_eq m c t) covered

/-- The run, read: the result array at the specification, the arguments unchanged. -/
theorem run : θ_run defs (onTc (τ := τ) (main (F := Ideal))) ⟨m, fun _ => 0, ρ⟩ fun r => ∀ c : Dev nD,
      r.2.mem ((c : Thread nD τ).loc main_v12) = Garr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩)
    (Cert.KernelIdeal.Value.run_blocks m ρ)

end Cert.KernelIdeal.BlockValue

end
-- ==== Proof.RefValue.lean ====
/-
  THE REFERENCE, READ AT AN ENTRY, IS THE SPECIFICATION.

  The reference computes the same readout with whole arrays: four products of the 4096 × 1024 inputs with the
  transposed weights, a bias and a rectifier each, joined side by side into the 4096 × 2048 features; the features'
  and the centres' rows' sums of squares (each a sum started from zero); the product of the features with the
  transposed centres; and the readout formula entry by entry. Read at `(p, q)` each stage names one entry or one
  sum over a row, and what is left is the specification's `G` at `(p, q)`; the only arithmetic used is `0 + s = s`
  for the two sums' starting value.
-/
import proofs.«136710_j69372311765581_2_alg».proof.Proof.Gen.ReferenceIdeal.Read
import proofs.«136710_j69372311765581_2_alg».proof.Proof.RowDistance
import proofs.«136710_j69372311765581_2_alg».proof.Proof.Quarters

noncomputable section

open scoped BigOperators

namespace Cert.ReferenceIdeal.RefValue

open Cert.ReferenceIdeal Cert.ReferenceIdeal.Gen Cert.ReferenceIdeal.Read Idealize.ShloMosaic Idealize.ShloMosaic.ValueIdx Cert.Dist

/-- Branch `branch0` of the reference at `(p, j)`. -/
theorem branch0 (x0 : (⟨S4096x1024, .f32⟩ : BufTy).Contents (Elt Ideal)) (x4 : (⟨S512x1024, .f32⟩ : BufTy).Contents (Elt Ideal)) (x5 : (⟨S512, .f32⟩ : BufTy).Contents (Elt Ideal)) (p : Fin 4096) (j : Fin 512) :
    val_main_v5 (F := Ideal) x0 x4 x5 (ix2 p j)
      = unit (fun k => x0 (ix2 p k)) (fun j k => x4 (ix2 j k)) (fun j => x5 (ix1 j)) j := by
  have el : ∀ k : Fin 1024, lidx_main_v1 (ix2 p j) k = ix2 p k := fun k =>
    funext fun a => Fin.ext (by match a with | ⟨0, _⟩ => rfl | ⟨1, _⟩ => rfl)
  have er : ∀ k : Fin 1024, idx_main_v0 (ridx_main_v1 (ix2 p j) k) = ix2 j k := fun k =>
    funext fun a => Fin.ext (by match a with | ⟨0, _⟩ => rfl | ⟨1, _⟩ => rfl)
  have eb : idx_main_v2 (idx_main_v3 (ix2 p j)) = ix1 j :=
    funext fun a => Fin.ext (by match a with | ⟨0, _⟩ => rfl)
  rw [val_main_v5_apply, val_main_v4_apply, val_main_v1_apply, val_main_v3_apply, val_main_v2_apply,
    val_main_call0_v0_apply, val_main_call0_cst_apply, eb]
  simp only [val_main_v0_apply, el, er]
  unfold unit
  exact congrArg (max _) Ideal.ofBits_zero_f32

/-- Branch `branch1` of the reference at `(p, j)`. -/
theorem branch1 (x1 : (⟨S4096x1024, .f32⟩ : BufTy).Contents (Elt Ideal)) (x6 : (⟨S512x1024, .f32⟩ : BufTy).Contents (Elt Ideal)) (x7 : (⟨S512, .f32⟩ : BufTy).Contents (Elt Ideal)) (p : Fin 4096) (j : Fin 512) :
    val_main_v11 (F := Ideal) x1 x6 x7 (ix2 p j)
      = unit (fun k => x1 (ix2 p k)) (fun j k => x6 (ix2 j k)) (fun j => x7 (ix1 j)) j := by
  have el : ∀ k : Fin 1024, lidx_main_v7 (ix2 p j) k = ix2 p k := fun k =>
    funext fun a => Fin.ext (by match a with | ⟨0, _⟩ => rfl | ⟨1, _⟩ => rfl)
  have er : ∀ k : Fin 1024, idx_main_v6 (ridx_main_v7 (ix2 p j) k) = ix2 j k := fun k =>
    funext fun a => Fin.ext (by match a with | ⟨0, _⟩ => rfl | ⟨1, _⟩ => rfl)
  have eb : idx_main_v8 (idx_main_v9 (ix2 p j)) = ix1 j :=
    funext fun a => Fin.ext (by match a with | ⟨0, _⟩ => rfl)
  rw [val_main_v11_apply, val_main_v10_apply, val_main_v7_apply, val_main_v9_apply, val_main_v8_apply,
    val_main_call1_v0_apply, val_main_call1_cst_apply, eb]
  simp only [val_main_v6_apply, el, er]
  unfold unit
  exact congrArg (max _) Ideal.ofBits_zero_f32

/-- Branch `branch2` of the reference at `(p, j)`. -/
theorem branch2 (x2 : (⟨S4096x1024, .f32⟩ : BufTy).Contents (Elt Ideal)) (x6 : (⟨S512x1024, .f32⟩ : BufTy).Contents (Elt Ideal)) (x7 : (⟨S512, .f32⟩ : BufTy).Contents (Elt Ideal)) (p : Fin 4096) (j : Fin 512) :
    val_main_v17 (F := Ideal) x2 x6 x7 (ix2 p j)
      = unit (fun k => x2 (ix2 p k)) (fun j k => x6 (ix2 j k)) (fun j => x7 (ix1 j)) j := by
  have el : ∀ k : Fin 1024, lidx_main_v13 (ix2 p j) k = ix2 p k := fun k =>
    funext fun a => Fin.ext (by match a with | ⟨0, _⟩ => rfl | ⟨1, _⟩ => rfl)
  have er : ∀ k : Fin 1024, idx_main_v12 (ridx_main_v13 (ix2 p j) k) = ix2 j k := fun k =>
    funext fun a => Fin.ext (by match a with | ⟨0, _⟩ => rfl | ⟨1, _⟩ => rfl)
  have eb : idx_main_v14 (idx_main_v15 (ix2 p j)) = ix1 j :=
    funext fun a => Fin.ext (by match a with | ⟨0, _⟩ => rfl)
  rw [val_main_v17_apply, val_main_v16_apply, val_main_v13_apply, val_main_v15_apply, val_main_v14_apply,
    val_main_call2_v0_apply, val_main_call2_cst_apply, eb]
  simp only [val_main_v12_apply, el, er]
  unfold unit
  exact congrArg (max _) Ideal.ofBits_zero_f32

/-- Branch `branch3` of the reference at `(p, j)`. -/
theorem branch3 (x3 : (⟨S4096x1024, .f32⟩ : BufTy).Contents (Elt Ideal)) (x6 : (⟨S512x1024, .f32⟩ : BufTy).Contents (Elt Ideal)) (x7 : (⟨S512, .f32⟩ : BufTy).Contents (Elt Ideal)) (p : Fin 4096) (j : Fin 512) :
    val_main_v23 (F := Ideal) x3 x6 x7 (ix2 p j)
      = unit (fun k => x3 (ix2 p k)) (fun j k => x6 (ix2 j k)) (fun j => x7 (ix1 j)) j := by
  have el : ∀ k : Fin 1024, lidx_main_v19 (ix2 p j) k = ix2 p k := fun k =>
    funext fun a => Fin.ext (by match a with | ⟨0, _⟩ => rfl | ⟨1, _⟩ => rfl)
  have er : ∀ k : Fin 1024, idx_main_v18 (ridx_main_v19 (ix2 p j) k) = ix2 j k := fun k =>
    funext fun a => Fin.ext (by match a with | ⟨0, _⟩ => rfl | ⟨1, _⟩ => rfl)
  have eb : idx_main_v20 (idx_main_v21 (ix2 p j)) = ix1 j :=
    funext fun a => Fin.ext (by match a with | ⟨0, _⟩ => rfl)
  rw [val_main_v23_apply, val_main_v22_apply, val_main_v19_apply, val_main_v21_apply, val_main_v20_apply,
    val_main_call3_v0_apply, val_main_call3_cst_apply, eb]
  simp only [val_main_v18_apply, el, er]
  unfold unit
  exact congrArg (max _) Ideal.ofBits_zero_f32

/-- The reference's feature array at `(p, d)`: the specification's features of rows `p`. -/
theorem features_apply (x0 : (⟨S4096x1024, .f32⟩ : BufTy).Contents (Elt Ideal)) (x1 : (⟨S4096x1024, .f32⟩ : BufTy).Contents (Elt Ideal)) (x2 : (⟨S4096x1024, .f32⟩ : BufTy).Contents (Elt Ideal)) (x3 : (⟨S4096x1024, .f32⟩ : BufTy).Contents (Elt Ideal)) (x4 : (⟨S512x1024, .f32⟩ : BufTy).Contents (Elt Ideal)) (x5 : (⟨S512, .f32⟩ : BufTy).Contents (Elt Ideal)) (x6 : (⟨S512x1024, .f32⟩ : BufTy).Contents (Elt Ideal)) (x7 : (⟨S512, .f32⟩ : BufTy).Contents (Elt Ideal)) (p : Fin 4096) (d : Fin 2048) :
    val_main_v24 (F := Ideal) x0 x1 x2 x3 x4 x5 x6 x7 (ix2 p d)
      = feat (fun k => x0 (ix2 p k)) (fun k => x1 (ix2 p k)) (fun k => x2 (ix2 p k)) (fun k => x3 (ix2 p k))
          (fun j k => x4 (ix2 j k)) (fun j => x5 (ix1 j)) (fun j k => x6 (ix2 j k)) (fun j => x7 (ix1 j)) d := by
  unfold val_main_v24
  refine (join4_apply _ _ _ _ _ p d).trans ?_
  unfold feat
  rw [funext fun j => branch0 x0 x4 x5 p j, funext fun j => branch1 x1 x6 x7 p j,
    funext fun j => branch2 x2 x6 x7 p j, funext fun j => branch3 x3 x6 x7 p j]

/-- The reference's result at `(p, q)` is the specification. -/
theorem value_apply (x0 : (⟨S4096x1024, .f32⟩ : BufTy).Contents (Elt Ideal)) (x1 : (⟨S4096x1024, .f32⟩ : BufTy).Contents (Elt Ideal)) (x2 : (⟨S4096x1024, .f32⟩ : BufTy).Contents (Elt Ideal)) (x3 : (⟨S4096x1024, .f32⟩ : BufTy).Contents (Elt Ideal)) (x4 : (⟨S512x1024, .f32⟩ : BufTy).Contents (Elt Ideal)) (x5 : (⟨S512, .f32⟩ : BufTy).Contents (Elt Ideal)) (x6 : (⟨S512x1024, .f32⟩ : BufTy).Contents (Elt Ideal)) (x7 : (⟨S512, .f32⟩ : BufTy).Contents (Elt Ideal)) (x8 : (⟨S1000x2048, .f32⟩ : BufTy).Contents (Elt Ideal)) (p : Fin 4096) (q : Fin 1000) :
    val_main_v43 (F := Ideal) x0 x1 x2 x3 x4 x5 x6 x7 x8 (ix2 p q) = G x0 x1 x2 x3 x4 x5 x6 x7 x8 p q := by
  have e26 : ∀ d : Fin 2048, idx_main_v26 (idx_main_v27 (idx_main_v31 (ix2 p q))) d = ix2 p d := fun d =>
    funext fun a => Fin.ext (by match a with | ⟨0, _⟩ => rfl | ⟨1, _⟩ => rfl)
  have e29 : ∀ d : Fin 2048, idx_main_v29 (idx_main_v30 (idx_main_v32 (ix2 p q))) d = ix2 q d := fun d =>
    funext fun a => Fin.ext (by match a with | ⟨0, _⟩ => rfl | ⟨1, _⟩ => rfl)
  have el : ∀ d : Fin 2048, lidx_main_v35 (ix2 p q) d = ix2 p d := fun d =>
    funext fun a => Fin.ext (by match a with | ⟨0, _⟩ => rfl | ⟨1, _⟩ => rfl)
  have er : ∀ d : Fin 2048, idx_main_v34 (ridx_main_v35 (ix2 p q) d) = ix2 q d := fun d =>
    funext fun a => Fin.ext (by match a with | ⟨0, _⟩ => rfl | ⟨1, _⟩ => rfl)
  rw [val_main_v43_apply, val_main_v41_apply, val_main_v40_apply, val_main_v38_apply, val_main_v33_apply,
    val_main_v31_apply, val_main_v27_apply, val_main_v26_apply, val_main_v32_apply, val_main_v30_apply, val_main_v29_apply,
    val_main_v37_apply, val_main_v36_apply, val_main_v35_apply, val_main_v42_apply, val_main_v39_apply,
    val_main_cst_apply, val_main_cst_0_apply, val_main_cst_1_apply, val_main_cst_2_apply, val_main_cst_3_apply]
  simp only [val_main_v25_apply, val_main_v28_apply, val_main_v34_apply, e26, e29, el, er, features_apply]
  unfold G entry scaledDist
  simp only [Ideal.ofBits_def, Ideal.ofBits_zero_f32, zero_add, Ideal.mulf_def, Ideal.addf_def, Ideal.subf_def,
    Ideal.maximumf_def, Ideal.hostUnary_sqrt_def]

/-- So the reference's result array is the specification's. -/
theorem value_eq (x0 : (⟨S4096x1024, .f32⟩ : BufTy).Contents (Elt Ideal)) (x1 : (⟨S4096x1024, .f32⟩ : BufTy).Contents (Elt Ideal)) (x2 : (⟨S4096x1024, .f32⟩ : BufTy).Contents (Elt Ideal)) (x3 : (⟨S4096x1024, .f32⟩ : BufTy).Contents (Elt Ideal)) (x4 : (⟨S512x1024, .f32⟩ : BufTy).Contents (Elt Ideal)) (x5 : (⟨S512, .f32⟩ : BufTy).Contents (Elt Ideal)) (x6 : (⟨S512x1024, .f32⟩ : BufTy).Contents (Elt Ideal)) (x7 : (⟨S512, .f32⟩ : BufTy).Contents (Elt Ideal)) (x8 : (⟨S1000x2048, .f32⟩ : BufTy).Contents (Elt Ideal)) :
    val_main_v43 (F := Ideal) x0 x1 x2 x3 x4 x5 x6 x7 x8 = Garr x0 x1 x2 x3 x4 x5 x6 x7 x8 := by
  funext i
  obtain ⟨p, q, rfl⟩ : ∃ (p : Fin 4096) (q : Fin 1000), i = ix2 p q := ⟨i 0, i 1, eq_ix2 i⟩
  exact value_apply x0 x1 x2 x3 x4 x5 x6 x7 x8 p q

end Cert.ReferenceIdeal.RefValue

end
-- ==== Proof.lean ====
/-
  A fused feature-extraction and distance readout against its whole-array reference, on the extended reals.

  Both programs take four 4096 × 1024 inputs, two 512 × 1024 weight matrices with their biases, and 1000 centres of
  2048 coordinates. A sample's features `f` are four rectified affine images of its four rows laid end to end, and the
  result at sample `p` and centre `q` is `sqrt (max ((∑ f² + ∑ c²) - 2 · ∑ f·c) 0) · s` with `c` the centre's row
  (Proof/RowDistance.lean: the one function `G` of the nine arguments).

  The kernel computes it 256 samples at a time over a grid of 16 points, with the weights transposed, the centres
  transposed and the centres' squared norms prepared by the host beforehand; narrowing to 16 bits is the identity on the
  extended reals. Its body's store at an entry is `G` at that sample and centre (Proof/KernelBranch.lean,
  Proof/KernelPayload.lean, Proof/HostArrays.lean), the 16 blocks tile the result (Proof/KernelArray.lean), so the
  result array is `G` of the arguments. The reference computes `G` stage by stage on whole arrays
  (Proof/RefValue.lean). The two sides are the same sums of the same products in the same grouping: no law of
  arithmetic beyond `0 + s = s` for a sum's starting value joins them, and the inputs' finiteness is never used.

  The three frames are the programs' runs with the result dropped; the kernel's idealization rewrote no operation.
-/
import proofs.«136710_j69372311765581_2_alg».proof.Defs
import proofs.«136710_j69372311765581_2_alg».proof.Proof.Gen.Kernel
import proofs.«136710_j69372311765581_2_alg».proof.Proof.Gen.Kernel.Skeleton
import proofs.«136710_j69372311765581_2_alg».proof.Proof.Gen.Kernel.Launch
import proofs.«136710_j69372311765581_2_alg».proof.Proof.Gen.Kernel.Points
import proofs.«136710_j69372311765581_2_alg».proof.Proof.Gen.Kernel.Frame
import proofs.«136710_j69372311765581_2_alg».proof.Proof.Gen.KernelIdeal
import proofs.«136710_j69372311765581_2_alg».proof.Proof.Gen.KernelIdeal.Skeleton
import proofs.«136710_j69372311765581_2_alg».proof.Proof.Gen.KernelIdeal.Launch
import proofs.«136710_j69372311765581_2_alg».proof.Proof.Gen.KernelIdeal.Points
import proofs.«136710_j69372311765581_2_alg».proof.Proof.Gen.KernelIdeal.Frame
import proofs.«136710_j69372311765581_2_alg».proof.Proof.Gen.ReferenceIdeal
import proofs.«136710_j69372311765581_2_alg».proof.Proof.Gen.Pre_finite_inputs
import proofs.«136710_j69372311765581_2_alg».proof.Proof.Gen.KernelIdeal.Value
import proofs.«136710_j69372311765581_2_alg».proof.Proof.Gen.ReferenceIdeal.Run
import proofs.«136710_j69372311765581_2_alg».proof.Proof.Gen.ReferenceIdeal.Read
import proofs.«136710_j69372311765581_2_alg».proof.Proof.KernelArray
import proofs.«136710_j69372311765581_2_alg».proof.Proof.RefValue
import Idealize.ShloMosaic.Adequacy
import Idealize.ShloMosaic.Init

noncomputable section

namespace Cert.Proof

open Idealize.ShloMosaic Idealize.SL.Sem Cert.Kernel

/-- The kernel as printed runs to the end, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories agreeing on the arguments, the kernel's result array and the reference's both end at the
    specification's array `Garr` of the arguments: the kernel's by its blocks, the reference's stage by stage. -/
theorem algebraic : Cert.algebraic_KernelIdeal_ReferenceIdeal := by
  intro m ρ m' ρ' _ hagree
  refine ⟨fun c => Cert.Dist.Garr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefValue.value_eq]
  obtain ⟨h0, h1, h2, h3, h4, h5, h6, h7, h8⟩ := hagree c
  rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
